-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128 .f32) (main_arg6 : FVec F S128 .f32) (main_arg7 : IVec S2x600000 32) (main_arg8 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 31
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S2x600000, .i32⟩
  | .hbm, ⟨8, _⟩ => ⟨S100000, .i32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S100000x128, .f32⟩
  | .hbm, ⟨24, _⟩ => ⟨S600000x1, .i32⟩
  | .hbm, ⟨25, _⟩ => ⟨S100000x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x600000 : Shape := ⟨2, ![2, 600000]⟩
abbrev S100000 : Shape := ⟨1, ![100000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S100000x1 : Shape := ⟨2, ![100000, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S2x600000, .i32⟩
  | .hbm, ⟨8, _⟩ => ⟨S100000, .i32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S100000x128, .f32⟩
  | .hbm, ⟨24, _⟩ => ⟨S600000x1, .i32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x1, .f32⟩
  | .hbm, ⟨60, _⟩ => ⟨S100000x1, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.GinSpec.lean ====
/-
  One graph-isomorphism layer followed by a layer normalisation, row by row, on the extended reals.

  A node's output row depends on the node's own feature row `x`, on the sum `m` of its in-neighbours' feature
  rows, and on the shared parameters only:

    h   = 1·x + m                                   (the aggregate; the constant is the printed word for 1.0)
    a   = max (h·W₁ + b₁) 0                         (first affine map, then the rectifier)
    z   = a·W₂ + b₂                                 (second affine map)
    d   = z − (Σ z)/128                             (the row centred at its mean)
    out = d · rsqrt ((Σ d·d)/128 + ε) · γ + β       (the centred row scaled to unit variance, then the affine pair)

  Sums run over the 128 features. Nothing here is rearranged, so no law of the extended reals is needed and no
  finiteness of the inputs: both programs compute this very sequence of operations.

  `layer` is the same computation for an array of `n` rows. A block of consecutive rows of the whole array is an
  array of fewer rows, and `layer` of the block is the block of `layer` (`layer_rows`): a row only reads its own row
  of `x` and of `m`.
-/
import Idealize.ShloMosaic.PureOps.Ideal
import Idealize.ShloMosaic.Lib.ValueIdx

noncomputable section

namespace Cert.Gin

open Idealize.ShloMosaic Idealize.ShloMosaic.ValueIdx

/-- The printed words of the four float constants the two programs share: 1.0, 0.0, 128.0 and the layer norm's ε. -/
abbrev cOne : EReal := Ideal.ofBits .f32 0x3F800000#32
abbrev cZero : EReal := Ideal.ofBits .f32 0x00000000#32
abbrev c128 : EReal := Ideal.ofBits .f32 0x43000000#32
abbrev cEps : EReal := Ideal.ofBits .f32 0x3727C5AC#32

/-- The aggregate of a node: its own row (times the constant one) plus its neighbours' sum. -/
def agg (xr mr : Fin 128 → EReal) : Fin 128 → EReal := fun k => cOne * xr k + mr k

/-- A row times a 128×128 matrix, plus a bias row. -/
def affine (w : Fin 128 → Fin 128 → EReal) (b : Fin 128 → EReal) (h : Fin 128 → EReal) : Fin 128 → EReal :=
  fun j => (∑ k : Fin 128, h k * w k j) + b j

/-- The rectifier, entry by entry. -/
def relu (a : Fin 128 → EReal) : Fin 128 → EReal := fun j => max (a j) cZero

/-- The mean of a row's 128 entries. -/
def mean (v : Fin 128 → EReal) : EReal := Ideal.div (∑ k : Fin 128, v k) c128

/-- A row minus its mean. -/
def centre (v : Fin 128 → EReal) : Fin 128 → EReal := fun j => v j - mean v

/-- The reciprocal square root of a centred row's mean square plus ε. -/
def invStd (d : Fin 128 → EReal) : EReal := Ideal.rsqrt (mean (fun k => d k * d k) + cEps)

/-- The centred row `d` normalised, scaled by γ and shifted by β. -/
def normed (d g be : Fin 128 → EReal) : Fin 128 → EReal := fun j => d j * invStd d * g j + be j

/-- The centred pre-normalisation row of a node. -/
def centred (xr mr : Fin 128 → EReal) (w1 : Fin 128 → Fin 128 → EReal) (b1 : Fin 128 → EReal)
    (w2 : Fin 128 → Fin 128 → EReal) (b2 : Fin 128 → EReal) : Fin 128 → EReal :=
  centre (affine w2 b2 (relu (affine w1 b1 (agg xr mr))))

/-- A node's output row. -/
def rowOut (xr mr : Fin 128 → EReal) (w1 : Fin 128 → Fin 128 → EReal) (b1 : Fin 128 → EReal)
    (w2 : Fin 128 → Fin 128 → EReal) (b2 g be : Fin 128 → EReal) : Fin 128 → EReal :=
  normed (centred xr mr w1 b1 w2 b2) g be

/-- The layer over an array of `n` rows: entry `(r, c)` is entry `c` of row `r`'s output row. -/
def layer {n : ℕ} (X M : (⟨2, ![n, 128]⟩ : Shape).Idx → EReal) (w1 : Fin 128 → Fin 128 → EReal) (b1 : Fin 128 → EReal)
    (w2 : Fin 128 → Fin 128 → EReal) (b2 g be : Fin 128 → EReal) : (⟨2, ![n, 128]⟩ : Shape).Idx → EReal :=
  fun i => rowOut (fun k => X (ix2 (i 0) k)) (fun k => M (ix2 (i 0) k)) w1 b1 w2 b2 g be (i 1)

/-- ROW LOCALITY: if row `p` of an `n`-row pair `(Xb, Mb)` is row `r` of an `n'`-row pair `(X, M)`, the layer's row `p`
    of the former is its row `r` of the latter. -/
theorem layer_rows {n n' : ℕ} (Xb Mb : (⟨2, ![n, 128]⟩ : Shape).Idx → EReal) (X M : (⟨2, ![n', 128]⟩ : Shape).Idx → EReal)
    (w1 : Fin 128 → Fin 128 → EReal) (b1 : Fin 128 → EReal) (w2 : Fin 128 → Fin 128 → EReal) (b2 g be : Fin 128 → EReal)
    (p : Fin n) (r : Fin n') (q : Fin 128)
    (hX : ∀ k : Fin 128, Xb (ix2 p k) = X (ix2 r k)) (hM : ∀ k : Fin 128, Mb (ix2 p k) = M (ix2 r k)) :
    layer Xb Mb w1 b1 w2 b2 g be (ix2 p q) = layer X M w1 b1 w2 b2 g be (ix2 r q) := by
  have eX : (fun k => Xb (ix2 p k)) = fun k => X (ix2 r k) := funext hX
  have eM : (fun k => Mb (ix2 p k)) = fun k => M (ix2 r k) := funext hM
  show rowOut (fun k => Xb (ix2 p k)) (fun k => Mb (ix2 p k)) w1 b1 w2 b2 g be q
     = rowOut (fun k => X (ix2 r k)) (fun k => M (ix2 r k)) w1 b1 w2 b2 g be q
  rw [eX, eM]

end Cert.Gin

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.KerRow.lean ====
/-
  What one grid point's body computes, read at an index: the layer (GinSpec) of the blocks it loads.

  The body loads a block of 5000 feature rows `P0`, the matching 5000 rows `P1` of the neighbours' sums, the two weight
  matrices `P2`, `P4` and four 1×128 rows `P3`, `P5`, `P6`, `P7`. Its stages are read at `(p, q)` one by one: the
  aggregate pointwise; each matrix product into a zero accumulator as a sum over the 128 contracted features (the
  change of format before it is the identity on the extended reals), its bias row broadcast over the rows; the
  rectifier pointwise; the mean of a row as the row sum, kept as a column and broadcast back, divided by 128. The
  centred value `k0_pay2` at `(p, q)` is then `Gin.centred` of row `p` at `q`, and the generated index-by-index form
  `E8` of the stored block is `Gin.layer` of the loaded blocks.
-/
import proofs.«165476_j86225763434891_1_alg».proof.Proof.Gen.KernelIdeal.Value
import proofs.«165476_j86225763434891_1_alg».proof.Proof.GinSpec
import proofs.«165476_j86225763434891_1_alg».proof.Proof.LibPlainDot
import proofs.«165476_j86225763434891_1_alg».proof.Proof.LibKeepdims
import Idealize.ShloMosaic.Lib.ValueLayout
import Idealize.ShloMosaic.Lib.Pipeline.Value

noncomputable section

namespace Cert.KernelIdeal.GinRow

open Cert.KernelIdeal Cert.KernelIdeal.Gen Idealize.ShloMosaic Idealize.ShloMosaic.ValueIdx

/-! ## The body's stages over variable blocks -/

/-- The aggregate block: the constant one times the features, plus the neighbours' sums. -/
def stAgg (P0 P1 : Vec Ideal S5000x128 .f32) : FVec Ideal S5000x128 .f32 :=
  addf (mulf (broadcast S5000x128 (Scalar.ofBits .f32 0x3F800000#32)) P0) (shapeCast S5000x128 P1 shapeCasts_S5000x128_S5000x128)

/-- A block times a 128×128 matrix (both passed through the change of format), into a zero accumulator, plus a bias row
    broadcast over the rows. -/
def stLin (H : FVec Ideal S5000x128 .f32) (W : Vec Ideal S128x128 .f32) (B : Vec Ideal S1x128 .f32) : FVec Ideal S5000x128 .f32 :=
  addf (matmul dot_S5000x128_S128x128_S5000x128_1_0_0_1_n_n none (truncf .bf16 H bitsLt_bf16_f32) (truncf .bf16 W bitsLt_bf16_f32)
      (constant S5000x128 .f32 0x00000000#32))
    (broadcastTo S5000x128 (shapeCast S1x128 B shapeCasts_S1x128_S1x128) broadcasts_S1x128_S5000x128)

/-- The rectifier of a block. -/
def stRelu (A : FVec Ideal S5000x128 .f32) : FVec Ideal S5000x128 .f32 :=
  maximumf A (broadcast S5000x128 (Scalar.ofBits .f32 0x00000000#32))

/-- The row means of a block, as a block: row sums kept as a column, divided by 128, broadcast over the columns. -/
def stMean (Z : FVec Ideal S5000x128 .f32) : FVec Ideal S5000x128 .f32 :=
  broadcastTo S5000x128 (divf (shapeCast S5000x1 (multiReduction .add [1] S5000 Z 0x00000000#32 reduces_S5000x128_S5000 (.inl rfl) rfl)
    shapeCasts_S5000_S5000x1) (broadcast S5000x1 (Scalar.ofBits .f32 0x43000000#32))) broadcasts_S5000x1_S5000x128

/-- The pre-normalisation block. -/
def stZ (P0 P1 : Vec Ideal S5000x128 .f32) (P2 : Vec Ideal S128x128 .f32) (P3 : Vec Ideal S1x128 .f32)
    (P4 : Vec Ideal S128x128 .f32) (P5 : Vec Ideal S1x128 .f32) : FVec Ideal S5000x128 .f32 :=
  stLin (stRelu (stLin (stAgg P0 P1) P2 P3)) P4 P5

/-- The body's centred value is the pre-normalisation block minus its row means: the printed sequence, regrouped. -/
theorem pay2_eq (P0 P1 : Vec Ideal S5000x128 .f32) (P2 : Vec Ideal S128x128 .f32) (P3 : Vec Ideal S1x128 .f32)
    (P4 : Vec Ideal S128x128 .f32) (P5 : Vec Ideal S1x128 .f32) :
    k0_pay2 (F := Ideal) P0 P1 P2 P3 P4 P5 = subf (stZ P0 P1 P2 P3 P4 P5) (stMean (stZ P0 P1 P2 P3 P4 P5)) := rfl

/-! ## Each stage at an index -/

theorem stAgg_apply (P0 P1 : Vec Ideal S5000x128 .f32) (p : Fin 5000) (k : Fin 128) :
    stAgg P0 P1 (ix2 p k) = Cert.Gin.agg (fun k => P0 (ix2 p k)) (fun k => P1 (ix2 p k)) k := by
  unfold stAgg
  rw [shapeCast_self]
  rfl

theorem stLin_apply (H : FVec Ideal S5000x128 .f32) (W : Vec Ideal S128x128 .f32) (B : Vec Ideal S1x128 .f32)
    (p : Fin 5000) (q : Fin 128) :
    stLin H W B (ix2 p q)
      = Cert.Gin.affine (fun k j => W (ix2 k j)) (fun j => B (ix2 (0 : Fin 1) j)) (fun k => H (ix2 p k)) q := by
  unfold stLin
  rw [shapeCast_self]
  show (matmul dot_S5000x128_S128x128_S5000x128_1_0_0_1_n_n none (truncf .bf16 H bitsLt_bf16_f32) (truncf .bf16 W bitsLt_bf16_f32)
      (constant S5000x128 .f32 0x00000000#32)) (ix2 p q)
      + (broadcastTo S5000x128 B broadcasts_S1x128_S5000x128) (ix2 p q)
    = (∑ k : Fin 128, H (ix2 p k) * W (ix2 k q)) + B (ix2 (0 : Fin 1) q)
  rw [broadcastTo_1b_ab_apply]
  exact congrArg (· + B (ix2 (0 : Fin 1) q))
    (Cert.PlainDot.matmul_zero_apply 5000 128 128 (φ₁ := .bf16) (φ₂ := .bf16) none _ _ (ix2 p q))

theorem stRelu_apply (A : FVec Ideal S5000x128 .f32) (p : Fin 5000) (k : Fin 128) :
    stRelu A (ix2 p k) = max (A (ix2 p k)) Cert.Gin.cZero := rfl

theorem stMean_apply (Z : FVec Ideal S5000x128 .f32) (p : Fin 5000) (q : Fin 128) :
    stMean Z (ix2 p q) = Cert.Gin.mean (fun k => Z (ix2 p k)) := by
  unfold stMean
  rw [Cert.Keepdims.broadcastTo_a1_ab_apply]
  show Ideal.div ((shapeCast S5000x1 (multiReduction .add [1] S5000 Z 0x00000000#32 reduces_S5000x128_S5000 (.inl rfl) rfl)
      shapeCasts_S5000_S5000x1) (ix2 p (0 : Fin 1))) Cert.Gin.c128 = _
  rw [Cert.Keepdims.shapeCast_a_a1_apply]
  exact congrArg (Ideal.div · Cert.Gin.c128)
    (Cert.Keepdims.sum_axis1_apply Z 0x00000000#32 reduces_S5000x128_S5000 (.inl rfl) rfl p)

/-- The pre-normalisation block's row `p` is the second affine map of the rectified first one of row `p`'s aggregate. -/
theorem stZ_row (P0 P1 : Vec Ideal S5000x128 .f32) (P2 : Vec Ideal S128x128 .f32) (P3 : Vec Ideal S1x128 .f32)
    (P4 : Vec Ideal S128x128 .f32) (P5 : Vec Ideal S1x128 .f32) (p : Fin 5000) :
    (fun j => stZ P0 P1 P2 P3 P4 P5 (ix2 p j))
      = Cert.Gin.affine (fun k j => P4 (ix2 k j)) (fun j => P5 (ix2 (0 : Fin 1) j))
          (Cert.Gin.relu (Cert.Gin.affine (fun k j => P2 (ix2 k j)) (fun j => P3 (ix2 (0 : Fin 1) j))
            (Cert.Gin.agg (fun k => P0 (ix2 p k)) (fun k => P1 (ix2 p k))))) := by
  funext j
  unfold stZ
  rw [stLin_apply]
  congr 1
  funext k
  rw [stRelu_apply, stLin_apply]
  show max _ _ = max _ _
  congr 2
  funext k'
  exact stAgg_apply P0 P1 p k'

/-- The body's centred value at `(p, q)`. -/
theorem pay2_apply (P0 P1 : Vec Ideal S5000x128 .f32) (P2 : Vec Ideal S128x128 .f32) (P3 : Vec Ideal S1x128 .f32)
    (P4 : Vec Ideal S128x128 .f32) (P5 : Vec Ideal S1x128 .f32) (p : Fin 5000) (q : Fin 128) :
    k0_pay2 (F := Ideal) P0 P1 P2 P3 P4 P5 (ix2 p q)
      = Cert.Gin.centred (fun k => P0 (ix2 p k)) (fun k => P1 (ix2 p k)) (fun k j => P2 (ix2 k j)) (fun j => P3 (ix2 (0 : Fin 1) j))
          (fun k j => P4 (ix2 k j)) (fun j => P5 (ix2 (0 : Fin 1) j)) q := by
  rw [pay2_eq]
  show stZ P0 P1 P2 P3 P4 P5 (ix2 p q) - stMean (stZ P0 P1 P2 P3 P4 P5) (ix2 p q) = _
  rw [stMean_apply, stZ_row]
  exact congrArg (· - Cert.Gin.mean _) (congrFun (stZ_row P0 P1 P2 P3 P4 P5 p) q)

/-! ## The stored block -/

/-- The mean square of row `p` of the centred value, as the body computes it: a lane sum of the entrywise square. -/
theorem sq_sum_apply (D : FVec Ideal S5000x128 .f32) (p : Fin 5000) :
    (multiReduction .add [1] S5000 (mulf D D) 0x00000000#32 reduces_S5000x128_S5000 (.inl rfl) rfl) (ix1 p)
      = ∑ k : Fin 128, D (ix2 p k) * D (ix2 p k) :=
  Cert.Keepdims.sum_axis1_apply (mulf D D) 0x00000000#32 reduces_S5000x128_S5000 (.inl rfl) rfl p

/-- The block the body leaves is the layer of the loaded blocks. -/
theorem block_eq (P0 P1 : Vec Ideal S5000x128 .f32) (P2 : Vec Ideal S128x128 .f32) (P3 : Vec Ideal S1x128 .f32)
    (P4 : Vec Ideal S128x128 .f32) (P5 P6 P7 : Vec Ideal S1x128 .f32) :
    Cert.KernelIdeal.Value.E8 (F := Ideal) P0 P1 P2 P3 P4 P5 P6 P7
      = Cert.Gin.layer (n := 5000) P0 P1 (fun k j => P2 (ix2 k j)) (fun j => P3 (ix2 (0 : Fin 1) j))
          (fun k j => P4 (ix2 k j)) (fun j => P5 (ix2 (0 : Fin 1) j)) (fun j => P6 (ix2 (0 : Fin 1) j))
          (fun j => P7 (ix2 (0 : Fin 1) j)) := by
  funext y
  obtain ⟨p, q, rfl⟩ : ∃ (p : Fin 5000) (q : Fin 128), y = ix2 p q := ⟨y 0, y 1, eq_ix2 y⟩
  have i0 : Cert.KernelIdeal.Value.ix8_0 (ix2 p q) = ix2 p q :=
    funext fun a => Fin.ext (by match a with | ⟨0, _⟩ => rfl | ⟨1, _⟩ => rfl)
  have i1 : Cert.KernelIdeal.Value.ix8_1 (ix2 p q) = ix1 p :=
    funext fun a => Fin.ext (by match a with | ⟨0, _⟩ => rfl)
  have i2 : Cert.KernelIdeal.Value.ix8_2 (ix2 p q) = ix2 (0 : Fin 1) q :=
    funext fun a => Fin.ext (by match a with | ⟨0, _⟩ => rfl | ⟨1, _⟩ => rfl)
  have i3 : Cert.KernelIdeal.Value.ix8_3 (ix2 p q) = ix2 (0 : Fin 1) q :=
    funext fun a => Fin.ext (by match a with | ⟨0, _⟩ => rfl | ⟨1, _⟩ => rfl)
  have hd : (fun k => k0_pay2 (F := Ideal) P0 P1 P2 P3 P4 P5 (ix2 p k))
      = Cert.Gin.centred (fun k => P0 (ix2 p k)) (fun k => P1 (ix2 p k)) (fun k j => P2 (ix2 k j)) (fun j => P3 (ix2 (0 : Fin 1) j))
          (fun k j => P4 (ix2 k j)) (fun j => P5 (ix2 (0 : Fin 1) j)) :=
    funext fun k => pay2_apply P0 P1 P2 P3 P4 P5 p k
  show (k0_pay2 (F := Ideal) P0 P1 P2 P3 P4 P5 (Cert.KernelIdeal.Value.ix8_0 (ix2 p q))
        * Ideal.rsqrt (Ideal.div ((multiReduction .add [1] S5000 (mulf (k0_pay2 (F := Ideal) P0 P1 P2 P3 P4 P5) (k0_pay2 (F := Ideal) P0 P1 P2 P3 P4 P5))
            0x00000000#32 reduces_S5000x128_S5000 (.inl rfl) rfl) (Cert.KernelIdeal.Value.ix8_1 (ix2 p q))) Cert.Gin.c128 + Cert.Gin.cEps))
        * P6 (Cert.KernelIdeal.Value.ix8_2 (ix2 p q)) + P7 (Cert.KernelIdeal.Value.ix8_3 (ix2 p q))
      = Cert.Gin.normed (Cert.Gin.centred (fun k => P0 (ix2 p k)) (fun k => P1 (ix2 p k)) (fun k j => P2 (ix2 k j)) (fun j => P3 (ix2 (0 : Fin 1) j))
          (fun k j => P4 (ix2 k j)) (fun j => P5 (ix2 (0 : Fin 1) j))) (fun j => P6 (ix2 (0 : Fin 1) j)) (fun j => P7 (ix2 (0 : Fin 1) j)) q
  rw [i0, i1, i2, i3, sq_sum_apply, ← hd]
  rfl

end Cert.KernelIdeal.GinRow

end
-- ==== Proof.RefRow.lean ====
import proofs.«165476_j86225763434891_1_alg».proof.Proof.Gen.ReferenceIdeal.Read
import proofs.«165476_j86225763434891_1_alg».proof.Proof.GinSpec

noncomputable section

namespace Cert.ReferenceIdeal.GinRow

open Cert.ReferenceIdeal Cert.ReferenceIdeal.Read Idealize.ShloMosaic Idealize.ShloMosaic.ValueIdx

/-! ## The reference's stages, read one node at a time

  Each lemma below reads one group of the reference's stages at the entry `(r, j)` of node `r` and says it is the
  matching function of `Cert.Gin` applied to that node's row. The layout stages (broadcasts of a bias row, of a
  per-node column, of a constant) are read at an index; the index each one reads is computed once, coordinate by
  coordinate, in the first group of lemmas. -/

/-! ### Which entry each layout stage reads -/

/-- The first contraction pairs entry `k` of node `r`'s row with entry `(k, j)` of the matrix. -/
theorem lidx17 (r : Fin 100000) (j k : Fin 128) : lidx_main_v17 (ix2 r j) k = ix2 r k :=
  funext fun a => Fin.ext (by match a with | ⟨0, _⟩ => rfl | ⟨1, _⟩ => rfl)
theorem ridx17 (r : Fin 100000) (j k : Fin 128) : ridx_main_v17 (ix2 r j) k = ix2 k j :=
  funext fun a => Fin.ext (by match a with | ⟨0, _⟩ => rfl | ⟨1, _⟩ => rfl)
/-- The second contraction, likewise. -/
theorem lidx22 (r : Fin 100000) (j k : Fin 128) : lidx_main_v22 (ix2 r j) k = ix2 r k :=
  funext fun a => Fin.ext (by match a with | ⟨0, _⟩ => rfl | ⟨1, _⟩ => rfl)
theorem ridx22 (r : Fin 100000) (j k : Fin 128) : ridx_main_v22 (ix2 r j) k = ix2 k j :=
  funext fun a => Fin.ext (by match a with | ⟨0, _⟩ => rfl | ⟨1, _⟩ => rfl)

/-- A parameter row broadcast over the nodes reads its entry `j`, whatever the node (the four such broadcasts:
    the two biases, the scale and the shift). -/
theorem idx19_18 (r : Fin 100000) (j : Fin 128) : idx_main_v18 (idx_main_v19 (ix2 r j)) = ix1 j :=
  funext fun a => Fin.ext (by match a with | ⟨0, _⟩ => rfl)
theorem idx24_23 (r : Fin 100000) (j : Fin 128) : idx_main_v23 (idx_main_v24 (ix2 r j)) = ix1 j :=
  funext fun a => Fin.ext (by match a with | ⟨0, _⟩ => rfl)
theorem idx45_44 (r : Fin 100000) (j : Fin 128) : idx_main_v44 (idx_main_v45 (ix2 r j)) = ix1 j :=
  funext fun a => Fin.ext (by match a with | ⟨0, _⟩ => rfl)
theorem idx48_47 (r : Fin 100000) (j : Fin 128) : idx_main_v47 (idx_main_v48 (ix2 r j)) = ix1 j :=
  funext fun a => Fin.ext (by match a with | ⟨0, _⟩ => rfl)

/-- A sum along a node's row runs over the entries `(r, k)`. -/
theorem idx26 (r : Fin 100000) (k : Fin 128) : idx_main_v26 (ix1 r) k = ix2 r k :=
  funext fun a => Fin.ext (by match a with | ⟨0, _⟩ => rfl | ⟨1, _⟩ => rfl)
theorem idx33 (r : Fin 100000) (k : Fin 128) : idx_main_v33 (ix1 r) k = ix2 r k :=
  funext fun a => Fin.ext (by match a with | ⟨0, _⟩ => rfl | ⟨1, _⟩ => rfl)

/-- A per-node column reads the per-node vector at the node. -/
theorem idx27 (r : Fin 100000) : idx_main_v27 (ix2 r (0 : Fin 1)) = ix1 r :=
  funext fun a => Fin.ext (by match a with | ⟨0, _⟩ => rfl)
theorem idx34 (r : Fin 100000) : idx_main_v34 (ix2 r (0 : Fin 1)) = ix1 r :=
  funext fun a => Fin.ext (by match a with | ⟨0, _⟩ => rfl)

/-- A per-node column broadcast along the features reads the node's one entry, whatever the feature. -/
theorem idx30 (r : Fin 100000) (j : Fin 128) : idx_main_v30 (ix2 r j) = ix2 r (0 : Fin 1) :=
  funext fun a => Fin.ext (by match a with | ⟨0, _⟩ => rfl | ⟨1, _⟩ => rfl)
theorem idx37 (r : Fin 100000) (j : Fin 128) : idx_main_v37 (ix2 r j) = ix2 r (0 : Fin 1) :=
  funext fun a => Fin.ext (by match a with | ⟨0, _⟩ => rfl | ⟨1, _⟩ => rfl)
theorem idx42 (r : Fin 100000) (j : Fin 128) : idx_main_v42 (ix2 r j) = ix2 r (0 : Fin 1) :=
  funext fun a => Fin.ext (by match a with | ⟨0, _⟩ => rfl | ⟨1, _⟩ => rfl)

/-! ### The stages of one node -/

section
variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S128x128, .f32⟩ : BufTy).Contents (Elt Ideal))
  (x4 x5 x6 : (⟨S128, .f32⟩ : BufTy).Contents (Elt Ideal)) (x7 : (⟨S2x600000, .i32⟩ : BufTy).Contents (Elt Ideal))

/-- Node `r`'s aggregate row: its own features plus its in-neighbours' sum, the latter read off the scatter stage. -/
abbrev aggRow (r : Fin 100000) : Fin 128 → EReal :=
  Cert.Gin.agg (fun k => x0 (ix2 r k)) (fun k => val_main_v13 (F := Ideal) x0 x7 (ix2 r k))

/-- Node `r`'s row after the first affine map and the rectifier. -/
abbrev hidRow (r : Fin 100000) : Fin 128 → EReal :=
  Cert.Gin.relu (Cert.Gin.affine (fun k j => x1 (ix2 k j)) (fun j => x2 (ix1 j)) (aggRow x0 x7 r))

/-- Node `r`'s row after the second affine map. -/
abbrev outRow (r : Fin 100000) : Fin 128 → EReal :=
  Cert.Gin.affine (fun k j => x3 (ix2 k j)) (fun j => x4 (ix1 j)) (hidRow x0 x1 x2 x7 r)

/-- The stage adding the neighbours' sum to (one times) the features is the aggregate. -/
theorem v16_at (r : Fin 100000) (k : Fin 128) :
    val_main_v16 (F := Ideal) x0 x7 (ix2 r k) = aggRow x0 x7 r k := by
  rw [val_main_v16_apply, val_main_v15_apply, val_main_v14_apply, val_main_cst_1_apply]
  rfl

/-- The first contraction plus the broadcast bias is the first affine map of the aggregate row. -/
theorem v20_at (r : Fin 100000) (j : Fin 128) :
    val_main_v20 (F := Ideal) x0 x1 x2 x7 (ix2 r j)
      = Cert.Gin.affine (fun k j => x1 (ix2 k j)) (fun j => x2 (ix1 j)) (aggRow x0 x7 r) j := by
  rw [val_main_v20_apply, val_main_v17_apply, val_main_v19_apply, val_main_v18_apply, idx19_18]
  show (∑ k : Fin 128, val_main_v16 (F := Ideal) x0 x7 (lidx_main_v17 (ix2 r j) k) * x1 (ridx_main_v17 (ix2 r j) k)) + x2 (ix1 j)
    = (∑ k : Fin 128, aggRow x0 x7 r k * x1 (ix2 k j)) + x2 (ix1 j)
  refine congrArg (· + x2 (ix1 j)) (Finset.sum_congr rfl fun k _ => ?_)
  rw [lidx17, ridx17, v16_at]

/-- The maximum with the broadcast zero is the rectifier. -/
theorem v21_at (r : Fin 100000) (j : Fin 128) :
    val_main_v21 (F := Ideal) x0 x1 x2 x7 (ix2 r j) = hidRow x0 x1 x2 x7 r j := by
  rw [val_main_v21_apply, val_main_call0_v0_apply, val_main_call0_cst_apply, v20_at]
  rfl

/-- The second contraction plus the broadcast bias is the second affine map of the rectified row. -/
theorem v25_at (r : Fin 100000) (j : Fin 128) :
    val_main_v25 (F := Ideal) x0 x1 x2 x3 x4 x7 (ix2 r j) = outRow x0 x1 x2 x3 x4 x7 r j := by
  rw [val_main_v25_apply, val_main_v22_apply, val_main_v24_apply, val_main_v23_apply, idx24_23]
  show (∑ k : Fin 128, val_main_v21 (F := Ideal) x0 x1 x2 x7 (lidx_main_v22 (ix2 r j) k) * x3 (ridx_main_v22 (ix2 r j) k)) + x4 (ix1 j)
    = (∑ k : Fin 128, hidRow x0 x1 x2 x7 r k * x3 (ix2 k j)) + x4 (ix1 j)
  refine congrArg (· + x4 (ix1 j)) (Finset.sum_congr rfl fun k _ => ?_)
  rw [lidx22, ridx22, v21_at]

/-- The row sum (from the zero word) divided by the broadcast 128 is the row's mean. -/
theorem v29_at (r : Fin 100000) :
    val_main_v29 (F := Ideal) x0 x1 x2 x3 x4 x7 (ix2 r (0 : Fin 1)) = Cert.Gin.mean (outRow x0 x1 x2 x3 x4 x7 r) := by
  rw [val_main_v29_apply, val_main_v27_apply, idx27, val_main_v26_apply, val_main_v28_apply, val_main_cst_3_apply,
    val_main_cst_2_apply, Ideal.ofBits_def, Ideal.ofBits_zero_f32, zero_add]
  show Ideal.div (∑ k : Fin 128, val_main_v25 (F := Ideal) x0 x1 x2 x3 x4 x7 (idx_main_v26 (ix1 r) k)) Cert.Gin.c128
    = Ideal.div (∑ k : Fin 128, outRow x0 x1 x2 x3 x4 x7 r k) Cert.Gin.c128
  refine congrArg (Ideal.div · Cert.Gin.c128) (Finset.sum_congr rfl fun k _ => ?_)
  rw [idx26, v25_at]

/-- Node `r`'s centred row. -/
abbrev cenRow (r : Fin 100000) : Fin 128 → EReal := Cert.Gin.centre (outRow x0 x1 x2 x3 x4 x7 r)

/-- The row minus the broadcast mean is the centred row (the stage feeding the variance). -/
theorem v31_at (r : Fin 100000) (j : Fin 128) :
    val_main_v31 (F := Ideal) x0 x1 x2 x3 x4 x7 (ix2 r j) = cenRow x0 x1 x2 x3 x4 x7 r j := by
  rw [val_main_v31_apply, val_main_v30_apply, idx30, v29_at, v25_at]
  rfl

/-- The same subtraction, computed a second time by the program for the normalised row. -/
theorem v38_at (r : Fin 100000) (j : Fin 128) :
    val_main_v38 (F := Ideal) x0 x1 x2 x3 x4 x7 (ix2 r j) = cenRow x0 x1 x2 x3 x4 x7 r j := by
  rw [val_main_v38_apply, val_main_v37_apply, idx37, v29_at, v25_at]
  rfl

/-- The sum of the centred row's squares divided by 128 is its mean square. -/
theorem v36_at (r : Fin 100000) :
    val_main_v36 (F := Ideal) x0 x1 x2 x3 x4 x7 (ix2 r (0 : Fin 1))
      = Cert.Gin.mean (fun k => cenRow x0 x1 x2 x3 x4 x7 r k * cenRow x0 x1 x2 x3 x4 x7 r k) := by
  rw [val_main_v36_apply, val_main_v34_apply, idx34, val_main_v33_apply, val_main_v35_apply, val_main_cst_5_apply,
    val_main_cst_4_apply, Ideal.ofBits_def, Ideal.ofBits_zero_f32, zero_add]
  show Ideal.div (∑ k : Fin 128, val_main_v32 (F := Ideal) x0 x1 x2 x3 x4 x7 (idx_main_v33 (ix1 r) k)) Cert.Gin.c128
    = Ideal.div (∑ k : Fin 128, cenRow x0 x1 x2 x3 x4 x7 r k * cenRow x0 x1 x2 x3 x4 x7 r k) Cert.Gin.c128
  refine congrArg (Ideal.div · Cert.Gin.c128) (Finset.sum_congr rfl fun k _ => ?_)
  rw [idx33, val_main_v32_apply, v31_at]
  rfl

/-- The reciprocal square root of the mean square plus ε. -/
theorem v41_at (r : Fin 100000) :
    val_main_v41 (F := Ideal) x0 x1 x2 x3 x4 x7 (ix2 r (0 : Fin 1)) = Cert.Gin.invStd (cenRow x0 x1 x2 x3 x4 x7 r) := by
  rw [val_main_v41_apply, val_main_v40_apply, val_main_v39_apply, val_main_cst_6_apply, v36_at]
  rfl

/-- The last stage: the centred row times the broadcast reciprocal deviation, times the scale, plus the shift. -/
theorem v49_at (r : Fin 100000) (q : Fin 128) :
    val_main_v49 (F := Ideal) x0 x1 x2 x3 x4 x5 x6 x7 (ix2 r q)
      = Cert.Gin.normed (cenRow x0 x1 x2 x3 x4 x7 r) (fun j => x5 (ix1 j)) (fun j => x6 (ix1 j)) q := by
  rw [val_main_v49_apply, val_main_v46_apply, val_main_v43_apply, val_main_v42_apply, idx42, v41_at, v38_at,
    val_main_v45_apply, val_main_v44_apply, idx45_44, val_main_v48_apply, val_main_v47_apply, idx48_47]
  rfl

end

/-- The reference's last stage is the layer of its arguments, the neighbours' sum being its scatter stage. -/
theorem ref_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 x5 x6 : (⟨S128, .f32⟩ : BufTy).Contents (Elt Ideal)) (x7 : (⟨S2x600000, .i32⟩ : BufTy).Contents (Elt Ideal)) :
    val_main_v49 (F := Ideal) x0 x1 x2 x3 x4 x5 x6 x7
      = Cert.Gin.layer (n := 100000) x0 (val_main_v13 (F := Ideal) x0 x7) (fun k j => x1 (ix2 k j)) (fun j => x2 (ix1 j))
          (fun k j => x3 (ix2 k j)) (fun j => x4 (ix1 j)) (fun j => x5 (ix1 j)) (fun j => x6 (ix1 j)) := by
  funext i
  obtain ⟨r, q, rfl⟩ : ∃ (r : Fin 100000) (q : Fin 128), i = ix2 r q := ⟨i 0, i 1, eq_ix2 i⟩
  exact v49_at x0 x1 x2 x3 x4 x5 x6 x7 r q

end Cert.ReferenceIdeal.GinRow

end
-- ==== Proof.Whole.lean ====
/-
  The result array of the kernel program as ONE function of the arrays its region finds: the layer
  (GinSpec) of the node features, the neighbours' sums, the two weight matrices and the four parameter rows, each read
  off the array its window stages. Window 0 stages the features, window 1 the neighbours' sums, windows 2 and 4 the
  weights, windows 3, 5, 6 and 7 the bias and affine rows as 1×128 arrays.
-/
import proofs.«165476_j86225763434891_1_alg».proof.Proof.Gen.KernelIdeal.Frame
import proofs.«165476_j86225763434891_1_alg».proof.Proof.GinSpec

noncomputable section

namespace Cert.KernelIdeal.GinBlocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The whole result array, as the arrays the region finds determine it. -/
def whole (c : Dev nD) : S100000x128.Idx → EReal :=
  Cert.Gin.layer (n := 100000) (V m c (Pipeline.arrRef spec0 0)) (V m c (Pipeline.arrRef spec0 1))
    (fun k j => V m c (Pipeline.arrRef spec0 2) (ix2 k j)) (fun j => V m c (Pipeline.arrRef spec0 3) (ix2 (0 : Fin 1) j))
    (fun k j => V m c (Pipeline.arrRef spec0 4) (ix2 k j)) (fun j => V m c (Pipeline.arrRef spec0 5) (ix2 (0 : Fin 1) j))
    (fun j => V m c (Pipeline.arrRef spec0 6) (ix2 (0 : Fin 1) j)) (fun j => V m c (Pipeline.arrRef spec0 7) (ix2 (0 : Fin 1) j))

end Cert.KernelIdeal.GinBlocks

end
-- ==== Proof.Blocks.lean ====
/-
  From the blocks to the whole array, on the kernel's side.

  The region runs over 20 grid points. Point `t` stages rows 5000·t … 5000·t + 4999 of the feature array and of the
  neighbours'-sum array, the whole of the two weight matrices and of the four parameter rows, and writes back rows
  5000·t … of the result. What it writes back is the 5000-row layer of the staged blocks; since a row of the layer
  only reads its own row of the features and of the neighbours' sums (row locality), that is rows 5000·t … of the
  100000-row layer of the whole arrays. The 20 row blocks cover the result array, so after the run the result array
  is the layer of the whole arrays.
-/
import proofs.«165476_j86225763434891_1_alg».proof.Proof.Gen.KernelIdeal.Value
import proofs.«165476_j86225763434891_1_alg».proof.Proof.Whole
import proofs.«165476_j86225763434891_1_alg».proof.Proof.KerRow

noncomputable section

namespace Cert.KernelIdeal.GinBlocks

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of the body's whole-buffer accesses, however spelt. -/
theorem zero_off : (![0, 0] : Fin 2 → Nat) = fun _ => 0 := funext fun a => by fin_cases a <;> rfl

/-- The printed index maps, decided once over the 20 points: the two row-blocked inputs and the output sit at block
    `(t, 0)`, the six parameter windows at block `(0, 0)`. -/
theorem index_maps : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

/-- Row `p` of the feature window's block at point `t` is row `5000·t + p` of the array. -/
theorem rows_win0 (X : S100000x128.Idx → EReal) (t : Fin cfg0.N) (p : Fin 5000) (k : Fin 128) (r : Fin 100000)
    (hr : r.val = 5000 * t.val + p.val) :
    (((cfg0.win 0).blk t).view.read (Elt Ideal) X : S5000x128.Idx → EReal) (ix2 p k) = X (ix2 r k) := by
  obtain ⟨⟨a0, a1⟩, ⟨b0, b1⟩, -⟩ := index_maps t
  show X (((cfg0.win 0).blk t).view.emb (ix2 p k)) = X (ix2 r k)
  congr 1
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Row `p` of the neighbours'-sum window's block at point `t` is row `5000·t + p` of the array. -/
theorem rows_win1 (X : S100000x128.Idx → EReal) (t : Fin cfg0.N) (p : Fin 5000) (k : Fin 128) (r : Fin 100000)
    (hr : r.val = 5000 * t.val + p.val) :
    (((cfg0.win 1).blk t).view.read (Elt Ideal) X : S5000x128.Idx → EReal) (ix2 p k) = X (ix2 r k) := by
  obtain ⟨⟨a0, a1⟩, ⟨b0, b1⟩, -⟩ := index_maps t
  show X (((cfg0.win 1).blk t).view.emb (ix2 p k)) = X (ix2 r k)
  congr 1
  funext a; apply Fin.ext
  match a with
  | ⟨0, _⟩ => show win0_1.index t (0 : Fin 2) * 5000 + 1 * p.val = r.val; omega
  | ⟨1, _⟩ => show win0_1.index t (1 : Fin 2) * 128 + 1 * k.val = k.val; omega

/-- The first weight matrix's window has one block, the whole array, at every point. -/
theorem block_win2 (A : S128x128.Idx → EReal) (t : Fin cfg0.N) :
    (((cfg0.win 2).blk t).view.read (Elt Ideal) A : S128x128.Idx → EReal) = A := by
  obtain ⟨-, -, ⟨c20, c21⟩, ⟨c30, c31⟩, ⟨c40, c41⟩, ⟨c50, c51⟩, ⟨c60, c61⟩, ⟨c70, c71⟩, -⟩ := index_maps t
  funext y
  show A (((cfg0.win 2).blk t).view.emb y) = A y
  congr 1
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first bias row's window has one block, the whole array, at every point. -/
theorem block_win3 (A : S1x128.Idx → EReal) (t : Fin cfg0.N) :
    (((cfg0.win 3).blk t).view.read (Elt Ideal) A : S1x128.Idx → EReal) = A := by
  obtain ⟨-, -, ⟨c20, c21⟩, ⟨c30, c31⟩, ⟨c40, c41⟩, ⟨c50, c51⟩, ⟨c60, c61⟩, ⟨c70, c71⟩, -⟩ := index_maps t
  funext y
  show A (((cfg0.win 3).blk t).view.emb y) = A y
  congr 1
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight matrix's window has one block, the whole array, at every point. -/
theorem block_win4 (A : S128x128.Idx → EReal) (t : Fin cfg0.N) :
    (((cfg0.win 4).blk t).view.read (Elt Ideal) A : S128x128.Idx → EReal) = A := by
  obtain ⟨-, -, ⟨c20, c21⟩, ⟨c30, c31⟩, ⟨c40, c41⟩, ⟨c50, c51⟩, ⟨c60, c61⟩, ⟨c70, c71⟩, -⟩ := index_maps t
  funext y
  show A (((cfg0.win 4).blk t).view.emb y) = A y
  congr 1
  funext a; apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The second bias row's window has one block, the whole array, at every point. -/
theorem block_win5 (A : S1x128.Idx → EReal) (t : Fin cfg0.N) :
    (((cfg0.win 5).blk t).view.read (Elt Ideal) A : S1x128.Idx → EReal) = A := by
  obtain ⟨-, -, ⟨c20, c21⟩, ⟨c30, c31⟩, ⟨c40, c41⟩, ⟨c50, c51⟩, ⟨c60, c61⟩, ⟨c70, c71⟩, -⟩ := index_maps t
  funext y
  show A (((cfg0.win 5).blk t).view.emb y) = A y
  congr 1
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The scale row's window has one block, the whole array, at every point. -/
theorem block_win6 (A : S1x128.Idx → EReal) (t : Fin cfg0.N) :
    (((cfg0.win 6).blk t).view.read (Elt Ideal) A : S1x128.Idx → EReal) = A := by
  obtain ⟨-, -, ⟨c20, c21⟩, ⟨c30, c31⟩, ⟨c40, c41⟩, ⟨c50, c51⟩, ⟨c60, c61⟩, ⟨c70, c71⟩, -⟩ := index_maps t
  funext y
  show A (((cfg0.win 6).blk t).view.emb y) = A y
  congr 1
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The shift row's window has one block, the whole array, at every point. -/
theorem block_win7 (A : S1x128.Idx → EReal) (t : Fin cfg0.N) :
    (((cfg0.win 7).blk t).view.read (Elt Ideal) A : S1x128.Idx → EReal) = A := by
  obtain ⟨-, -, ⟨c20, c21⟩, ⟨c30, c31⟩, ⟨c40, c41⟩, ⟨c50, c51⟩, ⟨c60, c61⟩, ⟨c70, c71⟩, -⟩ := index_maps t
  funext y
  show A (((cfg0.win 7).blk t).view.emb y) = A y
  congr 1
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Entry `(p, q)` of the result window's block at point `t` is entry `(5000·t + p, q)` of the array. -/
theorem emb_win8 (t : Fin cfg0.N) (p : Fin 5000) (q : Fin 128) (r : Fin 100000) (hr : r.val = 5000 * t.val + p.val) :
    (((cfg0.win 8).blk t).view.emb (ix2 p q : S5000x128.Idx) : S100000x128.Idx) = ix2 r q := by
  obtain ⟨-, -, -, -, -, -, -, -, ⟨e0, e1⟩⟩ := index_maps t
  funext a; apply Fin.ext
  match a with
  | ⟨0, _⟩ => show win0_8.index t (0 : Fin 2) * 5000 + 1 * p.val = r.val; omega
  | ⟨1, _⟩ => show win0_8.index t (1 : Fin 2) * 128 + 1 * q.val = q.val; omega

/-- WHAT POINT `t` WRITES BACK, over arbitrary arrays: the body's result of the windows' blocks at `t`, cut to the
    result window's block, is the layer of the whole arrays read through that block. The body's loads are its whole
    staging buffers; the one store's canon is the index-by-index function of the loads, which is the 5000-row layer
    of the blocks; row `p` of the blocks is row `5000·t + p` of the arrays, and the parameter blocks are the
    parameter arrays, so row locality carries the layer across. -/
theorem flushed_layer (A0 A1 : S100000x128.Idx → EReal) (A2 : S128x128.Idx → EReal) (A3 : S1x128.Idx → EReal)
    (A4 : S128x128.Idx → EReal) (A5 A6 A7 : S1x128.Idx → EReal) (t : Fin cfg0.N) :
    (cfg0.win 8).cut (grid0.coords t)
        (out0_8 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6) (((cfg0.win 7).blk t).view.read (Elt Ideal) A7))
      = ((cfg0.win 8).blk t).view.read (Elt Ideal)
          (Cert.Gin.layer (n := 100000) A0 A1 (fun k j => A2 (ix2 k j)) (fun j => A3 (ix2 (0 : Fin 1) j))
            (fun k j => A4 (ix2 k j)) (fun j => A5 (ix2 (0 : Fin 1) j))
            (fun j => A6 (ix2 (0 : Fin 1) j)) (fun j => A7 (ix2 (0 : Fin 1) j))) := by
  have ht : t.val < 20 := t.isLt
  unfold out0_8
  simp only [View.ld_unit_zero (S := S5000x128) zero_off, View.ld_unit_zero (S := S128x128) zero_off,
    View.ld_unit_zero (S := S1x128) zero_off]
  rw [block_win2 A2 t, block_win3 A3 t, block_win4 A4 t, block_win5 A5 t, block_win6 A6 t, block_win7 A7 t]
  refine funext fun (j : S5000x128.Idx) => ?_
  obtain ⟨p, q, rfl⟩ : ∃ (p : Fin 5000) (q : Fin 128), j = ix2 p q := ⟨j 0, j 1, eq_ix2 j⟩
  refine (Value.canon8_eq _ _ _ _ _ _ _ _ (ix2 p q)).trans ?_
  refine (congrFun (Cert.KernelIdeal.GinRow.block_eq _ _ _ _ _ _ _ _) (ix2 p q)).trans ?_
  have hp : p.val < 5000 := p.isLt
  show _ = Cert.Gin.layer (n := 100000) A0 A1 (fun k j => A2 (ix2 k j)) (fun j => A3 (ix2 (0 : Fin 1) j))
            (fun k j => A4 (ix2 k j)) (fun j => A5 (ix2 (0 : Fin 1) j))
            (fun j => A6 (ix2 (0 : Fin 1) j)) (fun j => A7 (ix2 (0 : Fin 1) j)) (((cfg0.win 8).blk t).view.emb (ix2 p q : S5000x128.Idx))
  rw [emb_win8 t p q ⟨5000 * t.val + p.val, by omega⟩ rfl]
  exact Cert.Gin.layer_rows _ _ A0 A1 _ _ _ _ _ _ p ⟨5000 * t.val + p.val, by omega⟩ q
    (fun k => rows_win0 A0 t p k _ rfl) (fun k => rows_win1 A1 t p k _ rfl)

variable (m : (ℓ : Loc nD τ sig) → Buf (Elt Ideal) ℓ)

/-- WHAT POINT `t` WRITES BACK is block `t` of the layer of the arrays as the region finds them. -/
theorem flushed_eq (c : Dev nD) (t : Fin cfg0.N) :
    (dats m 0 c).flushed 8 t = ((cfg0.win 8).blk t).view.read (Elt Ideal) (whole m c) := by
  rw [Value.flushed8]
  unfold iblk whole
  exact flushed_layer _ _ _ _ _ _ _ _ t

/-- An index of the result array is in point `t`'s block iff each coordinate is in the block's range on its axis. -/
theorem mem_block (t : Fin cfg0.N) (i : S100000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v18).slice (win0_8.rect t)).set ↔ _
  rw [View.set_slice_whole, Rect.mem_set_unit]
  exact Iff.rfl

/-- THE COVER: row `r` of the result array lies in the block of point `r / 5000`, whatever the column. -/
theorem covered (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, ⟨e0, e1⟩⟩ := index_maps t
  have ht : t.val = (i 0).val / 5000 := rfl
  refine ⟨t, flush0_8 t, ?_⟩
  rw [mem_block]
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 128 ≤ (i 1).val ∧ (i 1).val < win0_8.index t (1 : Fin 2) * 128 + 128
    omega

/-- After the run the result array is `whole`. -/
theorem final (c : Dev nD) : (dats m 0 c).arrAt 8 cfg0.N = whole m c :=
  (dats m 0 c).arrAt_eq_of_cover 8 (whole m c) (fun t _ => flushed_eq m c t) covered

end Cert.KernelIdeal.GinBlocks

end
-- ==== Proof.Prefix.lean ====
/-
  The arrays the region finds, in terms of the argument arrays as launched.

  Before the region the program runs one stretch of host operations. Three of the region's eight windows stage an
  argument array that no operation of the stretch writes: the node features and the two weight matrices. One window
  stages the neighbours' sums: the two rows of the edge list sliced out and flattened, the source indices normalised
  (a negative index is shifted by the number of nodes), the source nodes' feature rows gathered, and the gathered rows
  scatter-added into an array of zeros at the target indices. Operation for operation this is the reference's stage
  `val_main_v13` of the features and the edge list, so the two terms agree by unfolding. The remaining four windows
  each stage a parameter row of 128 entries recast as a 1×128 array, whose entry (0, j) is the row's entry j.
-/
import proofs.«165476_j86225763434891_1_alg».proof.Proof.Gen.ReferenceIdeal.Read
import proofs.«165476_j86225763434891_1_alg».proof.Proof.Whole
import Idealize.ShloMosaic.Lib.ValueLayout

noncomputable section

namespace Cert.KernelIdeal.GinBlocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The windows that stage an argument array as launched -/

/-- Window 0 stages the node features, which no host operation writes. -/
theorem found_features (c : Dev nD) :
    @Eq (S100000x128.Idx → EReal) (V m c (Pipeline.arrRef spec0 0)) (m ((c : Thread nD τ).loc main_arg0)) := by
  show V m c main_arg0 = _
  exact V_main_arg0 m c

/-- Window 2 stages the first weight matrix, which no host operation writes. -/
theorem found_w1 (c : Dev nD) :
    @Eq (S128x128.Idx → EReal) (V m c (Pipeline.arrRef spec0 2)) (m ((c : Thread nD τ).loc main_arg1)) := by
  show V m c main_arg1 = _
  exact V_main_arg1 m c

/-- Window 4 stages the second weight matrix, which no host operation writes. -/
theorem found_w2 (c : Dev nD) :
    @Eq (S128x128.Idx → EReal) (V m c (Pipeline.arrRef spec0 4)) (m ((c : Thread nD τ).loc main_arg3)) := by
  show V m c main_arg3 = _
  exact V_main_arg3 m c

/-! ## The neighbours' sums -/

/-- Window 1 stages the neighbours' sums. Reading the stretch of host operations at the scatter-add's result buffer
    gives the composition of the seventeen operations that feed it, over the features and the edge list as launched;
    the reference's stage is the same composition (its shape records have the same fields), so the two are equal by
    unfolding. -/
theorem found_sums (c : Dev nD) :
    @Eq (S100000x128.Idx → EReal) (V m c (Pipeline.arrRef spec0 1))
      (Cert.ReferenceIdeal.Read.val_main_v13 (F := Ideal) (m ((c : Thread nD τ).loc main_arg0)) (m ((c : Thread nD τ).loc main_arg7))) := by
  show @Eq (S100000x128.Idx → EReal) (V m c main_v13) _
  dsimp only [Gen.V, Gen.hostOps0]
  after_results_simp
  rfl

/-! ## The parameter rows, recast as 1×128 arrays -/

/-- A row of 128 entries recast as a 1×128 array reads, at (0, j), the row's entry j. -/
theorem row_cast (x : S128.Idx → EReal) :
    (fun j : Fin 128 => shapeCast S1x128 x shapeCasts_S128_S1x128 (ix2 (0 : Fin 1) j)) = fun j => x (ix1 j) :=
  funext fun j => shapeCast_a_1a_apply x shapeCasts_S128_S1x128 (0 : Fin 1) j

/-- The buffer window 3 stages holds the first bias row recast. -/
theorem b1_cast (c : Dev nD) :
    @Eq (S1x128.Idx → EReal) (V m c main_v14) (shapeCast S1x128 (m ((c : Thread nD τ).loc main_arg2)) shapeCasts_S128_S1x128) := by
  dsimp only [Gen.V, Gen.hostOps0]
  after_results
  rfl

/-- The buffer window 5 stages holds the second bias row recast. -/
theorem b2_cast (c : Dev nD) :
    @Eq (S1x128.Idx → EReal) (V m c main_v15) (shapeCast S1x128 (m ((c : Thread nD τ).loc main_arg4)) shapeCasts_S128_S1x128) := by
  dsimp only [Gen.V, Gen.hostOps0]
  after_results
  rfl

/-- The buffer window 6 stages holds the normalisation's scale row recast. -/
theorem gamma_cast (c : Dev nD) :
    @Eq (S1x128.Idx → EReal) (V m c main_v16) (shapeCast S1x128 (m ((c : Thread nD τ).loc main_arg5)) shapeCasts_S128_S1x128) := by
  dsimp only [Gen.V, Gen.hostOps0]
  after_results
  rfl

/-- The buffer window 7 stages holds the normalisation's shift row recast. -/
theorem beta_cast (c : Dev nD) :
    @Eq (S1x128.Idx → EReal) (V m c main_v17) (shapeCast S1x128 (m ((c : Thread nD τ).loc main_arg6)) shapeCasts_S128_S1x128) := by
  dsimp only [Gen.V, Gen.hostOps0]
  after_results
  rfl

/-- Window 3 read along its one row is the first bias row. -/
theorem found_b1 (c : Dev nD) :
    (fun j : Fin 128 => V m c (Pipeline.arrRef spec0 3) (ix2 (0 : Fin 1) j)) = fun j => m ((c : Thread nD τ).loc main_arg2) (ix1 j) := by
  show (fun j : Fin 128 => (V m c main_v14 : S1x128.Idx → EReal) (ix2 (0 : Fin 1) j)) = _
  rw [b1_cast m c]
  exact row_cast _

/-- Window 5 read along its one row is the second bias row. -/
theorem found_b2 (c : Dev nD) :
    (fun j : Fin 128 => V m c (Pipeline.arrRef spec0 5) (ix2 (0 : Fin 1) j)) = fun j => m ((c : Thread nD τ).loc main_arg4) (ix1 j) := by
  show (fun j : Fin 128 => (V m c main_v15 : S1x128.Idx → EReal) (ix2 (0 : Fin 1) j)) = _
  rw [b2_cast m c]
  exact row_cast _

/-- Window 6 read along its one row is the scale row. -/
theorem found_gamma (c : Dev nD) :
    (fun j : Fin 128 => V m c (Pipeline.arrRef spec0 6) (ix2 (0 : Fin 1) j)) = fun j => m ((c : Thread nD τ).loc main_arg5) (ix1 j) := by
  show (fun j : Fin 128 => (V m c main_v16 : S1x128.Idx → EReal) (ix2 (0 : Fin 1) j)) = _
  rw [gamma_cast m c]
  exact row_cast _

/-- Window 7 read along its one row is the shift row. -/
theorem found_beta (c : Dev nD) :
    (fun j : Fin 128 => V m c (Pipeline.arrRef spec0 7) (ix2 (0 : Fin 1) j)) = fun j => m ((c : Thread nD τ).loc main_arg6) (ix1 j) := by
  show (fun j : Fin 128 => (V m c main_v17 : S1x128.Idx → EReal) (ix2 (0 : Fin 1) j)) = _
  rw [beta_cast m c]
  exact row_cast _

/-! ## The whole array -/

/-- `whole` in terms of the argument arrays as launched. -/
theorem whole_args (c : Dev nD) :
    whole m c = Cert.Gin.layer (n := 100000) (m ((c : Thread nD τ).loc main_arg0))
      (Cert.ReferenceIdeal.Read.val_main_v13 (F := Ideal) (m ((c : Thread nD τ).loc main_arg0)) (m ((c : Thread nD τ).loc main_arg7)))
      (fun k j => m ((c : Thread nD τ).loc main_arg1) (ix2 k j)) (fun j => m ((c : Thread nD τ).loc main_arg2) (ix1 j))
      (fun k j => m ((c : Thread nD τ).loc main_arg3) (ix2 k j)) (fun j => m ((c : Thread nD τ).loc main_arg4) (ix1 j))
      (fun j => m ((c : Thread nD τ).loc main_arg5) (ix1 j)) (fun j => m ((c : Thread nD τ).loc main_arg6) (ix1 j)) := by
  unfold whole
  rw [found_features m c, found_sums m c, found_w1 m c, found_b1 m c, found_w2 m c, found_b2 m c, found_gamma m c,
    found_beta m c]

end Cert.KernelIdeal.GinBlocks

end
-- ==== Proof.lean ====
/-
  The certificate of the node-update kernel: a graph-isomorphism layer and a layer normalisation, tiled over the nodes.

  Both programs aggregate each node's in-neighbours by the same host operations (a gather of feature rows and a
  scatter-add), then compute, row by row, `max ((1·x + m)·W₁ + b₁) 0 · W₂ + b₂`, centre it at its mean over the 128
  features and scale it by the reciprocal square root of its mean square plus ε, times γ plus β (Proof/GinSpec.lean).
  The kernel does this for 5000 rows per grid point, with the two matrix products on the matrix unit after a change of
  format that is the identity on the extended reals; the reference does it for all 100000 rows at once.

  The frames are the generated ones (the reference's is its generated run with the result dropped). The idealisation
  rewrote nothing, so `preserves` is trivial. For `algebraic`: the kernel's result array after the run is the layer of
  the arrays its region finds (Proof/KerRow.lean: one point's block; Proof/Blocks.lean: the blocks tile the array), which
  are the arguments and the host operations' results (Proof/Prefix.lean); the reference's result is the same layer of
  its arguments (Proof/RefRow.lean); and the arguments agree. No law of the extended reals is used, and the
  precondition is never opened.
-/
import proofs.«165476_j86225763434891_1_alg».proof.Defs
import proofs.«165476_j86225763434891_1_alg».proof.Proof.Gen.Kernel
import proofs.«165476_j86225763434891_1_alg».proof.Proof.Gen.Kernel.Skeleton
import proofs.«165476_j86225763434891_1_alg».proof.Proof.Gen.Kernel.Launch
import proofs.«165476_j86225763434891_1_alg».proof.Proof.Gen.Kernel.Points
import proofs.«165476_j86225763434891_1_alg».proof.Proof.Gen.Kernel.Frame
import proofs.«165476_j86225763434891_1_alg».proof.Proof.Gen.KernelIdeal
import proofs.«165476_j86225763434891_1_alg».proof.Proof.Gen.KernelIdeal.Skeleton
import proofs.«165476_j86225763434891_1_alg».proof.Proof.Gen.KernelIdeal.Launch
import proofs.«165476_j86225763434891_1_alg».proof.Proof.Gen.KernelIdeal.Points
import proofs.«165476_j86225763434891_1_alg».proof.Proof.Gen.KernelIdeal.Frame
import proofs.«165476_j86225763434891_1_alg».proof.Proof.Gen.ReferenceIdeal
import proofs.«165476_j86225763434891_1_alg».proof.Proof.Gen.Pre_finite_inputs
import proofs.«165476_j86225763434891_1_alg».proof.Proof.Gen.KernelIdeal.Value
import proofs.«165476_j86225763434891_1_alg».proof.Proof.Gen.ReferenceIdeal.Run
import proofs.«165476_j86225763434891_1_alg».proof.Proof.Gen.ReferenceIdeal.Read
import proofs.«165476_j86225763434891_1_alg».proof.Proof.GinSpec
import proofs.«165476_j86225763434891_1_alg».proof.Proof.KerRow
import proofs.«165476_j86225763434891_1_alg».proof.Proof.RefRow
import proofs.«165476_j86225763434891_1_alg».proof.Proof.Blocks
import proofs.«165476_j86225763434891_1_alg».proof.Proof.Prefix
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the layer of the arguments: the kernel's blocks tile it, the reference computes it whole. -/
theorem algebraic : Cert.algebraic_KernelIdeal_ReferenceIdeal := by
  intro m ρ m' ρ' _ hagree
  refine ⟨fun c => Cert.Gin.layer (n := 100000) (m ((c : Thread Cert.KernelIdeal.nD Cert.KernelIdeal.τ).loc Cert.KernelIdeal.main_arg0))
      (Cert.ReferenceIdeal.Read.val_main_v13 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg7)))
      (fun k j => m ((c : Thread Cert.KernelIdeal.nD Cert.KernelIdeal.τ).loc Cert.KernelIdeal.main_arg1) (ix2 k j))
      (fun j => m ((c : Thread Cert.KernelIdeal.nD Cert.KernelIdeal.τ).loc Cert.KernelIdeal.main_arg2) (ix1 j))
      (fun k j => m ((c : Thread Cert.KernelIdeal.nD Cert.KernelIdeal.τ).loc Cert.KernelIdeal.main_arg3) (ix2 k j))
      (fun j => m ((c : Thread Cert.KernelIdeal.nD Cert.KernelIdeal.τ).loc Cert.KernelIdeal.main_arg4) (ix1 j))
      (fun j => m ((c : Thread Cert.KernelIdeal.nD Cert.KernelIdeal.τ).loc Cert.KernelIdeal.main_arg5) (ix1 j))
      (fun j => m ((c : Thread Cert.KernelIdeal.nD Cert.KernelIdeal.τ).loc Cert.KernelIdeal.main_arg6) (ix1 j)), ?_, ?_⟩
  · exact (θ_run Cert.KernelIdeal.defs _ _).mono
      (fun r h c => ⟨(h c).1.trans ((Cert.KernelIdeal.GinBlocks.final m c).trans (Cert.KernelIdeal.GinBlocks.whole_args m c)), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v49_eq, Cert.ReferenceIdeal.GinRow.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
